-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S16384x4096 : Shape := ⟨2, ![16384, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S1024x4096 .f32) (main_arg1 : FVec F S16384x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S1024x4096 : Shape := ⟨2, ![1024, 4096]⟩
abbrev S16384x4096 : Shape := ⟨2, ![16384, 4096]⟩
abbrev S_ : Shape := ⟨0, ![]⟩
abbrev S1024 : Shape := ⟨1, ![1024]⟩
abbrev S1024x1 : Shape := ⟨2, ![1024, 1]⟩
abbrev S16384 : Shape := ⟨1, ![16384]⟩
abbrev S16384x1 : Shape := ⟨2, ![16384, 1]⟩
abbrev S1024x16384 : Shape := ⟨2, ![1024, 16384]⟩
abbrev S256x4096 : Shape := ⟨2, ![256, 4096]⟩
abbrev S256x1024 : Shape := ⟨2, ![256, 1024]⟩

abbrev nBuf : Space → Nat
  | .hbm => 25
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S16384x4096, .f32⟩
  | .hbm, ⟨2, _⟩ => ⟨S1024x4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S1024x4096, .f32⟩
  | .hbm, ⟨19, _⟩ => ⟨S1024x4096, .f32⟩
  | .hbm, ⟨20, _⟩ => ⟨S1024x4096, .bf16⟩
  | .hbm, ⟨21, _⟩ => ⟨S16384x4096, .f32⟩
  | .hbm, ⟨22, _⟩ => ⟨S16384x4096, .f32⟩
  | .hbm, ⟨23, _⟩ => ⟨S16384x4096, .bf16⟩
  | .hbm, ⟨24, _⟩ => ⟨S1024x16384, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S1024x4096, .bf16⟩
  | .local _ .vmem, ⟨4, _⟩ => ⟨S256x1024, .f32⟩
  | .local _ .vmem, ⟨5, _⟩ => ⟨S256x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  reducesTo_S16384x4096_S16384_d1 : S16384x4096.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1024x1_S1024x4096_0_1 : S1024x1.BroadcastsInDim S1024x4096 (![0, 1] : Fin 2 → Fin S1024x4096.rank)
  bitsLt_bf16_f32 : FTy.bits .bf16 < FTy.bits .f32
  bcast_S16384x1_S16384x4096_0_1 : S16384x1.BroadcastsInDim S16384x4096 (![0, 1] : Fin 2 → Fin S16384x4096.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S1024x4096.size a
  hwx0_0 : ∀ i : grid0.Coords, EltTy.bits .bf16 = 32 ∨ (Rect.block (s := S1024x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x16384.size a
  hwx0_2 : ∀ i : grid0.Coords, EltTy.bits .f32 = 32 ∨ (Rect.block (s := S1024x16384) S256x1024.size (cc0_transform_2 i) (hinb0_2 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v8) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S16384x4096 : Shape := ⟨2, ![16384, 4096]⟩
abbrev S_ : Shape := ⟨0, ![]⟩
abbrev S1024 : Shape := ⟨1, ![1024]⟩
abbrev S1024x1 : Shape := ⟨2, ![1024, 1]⟩
abbrev S16384 : Shape := ⟨1, ![16384]⟩
abbrev S16384x1 : Shape := ⟨2, ![16384, 1]⟩
abbrev S1024x16384 : Shape := ⟨2, ![1024, 16384]⟩

abbrev nBuf : Space → Nat
  | .hbm => 23
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S16384x4096, .f32⟩
  | .hbm, ⟨2, _⟩ => ⟨S1024x4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S1024x4096, .f32⟩
  | .hbm, ⟨19, _⟩ => ⟨S1024x4096, .f32⟩
  | .hbm, ⟨20, _⟩ => ⟨S16384x4096, .f32⟩
  | .hbm, ⟨21, _⟩ => ⟨S16384x4096, .f32⟩
  | .hbm, ⟨22, _⟩ => ⟨S1024x16384, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  reducesTo_S16384x4096_S16384_d1 : S16384x4096.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1024x1_S1024x4096_0_1 : S1024x1.BroadcastsInDim S1024x4096 (![0, 1] : Fin 2 → Fin S1024x4096.rank)
  bcast_S16384x1_S16384x4096_0_1 : S16384x1.BroadcastsInDim S16384x4096 (![0, 1] : Fin 2 → Fin S16384x4096.rank)
  dot_S1024x4096_S16384x4096_S1024x16384_1_1_0_0_n_n_wf : DotDims.WF S1024x4096 S16384x4096 S1024x16384 [1] [1] [0] [0] [] []

variable [Facts₀]

def dot_S1024x4096_S16384x4096_S1024x16384_1_1_0_0_n_n : DotDims S1024x4096 S16384x4096 S1024x16384 where
  lhsContracting := [1]
  rhsContracting := [1]
  lhsNonContracting := [0]
  rhsNonContracting := [0]
  lhsBatch := []
  rhsBatch := []
  wf := dot_S1024x4096_S16384x4096_S1024x16384_1_1_0_0_n_n_wf

class Facts : Prop extends Facts₀ where

variable [Facts]
-- ==== Proof.GramSpec.lean ====
/-
  The specification both programs are measured against: the matrix of inner products of the rows of two arrays.
  For `A` of 1024 rows and `B` of 16384 rows, each row of 4096 extended reals, the entry at (n, j) is
  `∑ k, A[n, k] · B[j, k]`. A finite sum on the extended reals does not depend on the order or the grouping of its
  terms (addition there is commutative and associative), so nothing about how the sum is scheduled is part of the
  specification, and no finiteness of the entries is needed to state it or to compare two ways of computing it.
-/
import Idealize.ShloMosaic.PureOps.Ideal
import Idealize.ShloMosaic.Lib.ValueIdx

noncomputable section

open Idealize.ShloMosaic Idealize.ShloMosaic.ValueIdx
open scoped BigOperators

namespace Cert.Cosine

/-- The row of `A` an entry of the [1024, 16384] result depends on: its first coordinate. -/
abbrev rowOf (i : (⟨2, ![1024, 16384]⟩ : Shape).Idx) : Fin 1024 := ⟨(i 0).val, (i 0).isLt⟩

/-- The row of `B` an entry of the [1024, 16384] result depends on: its second coordinate. -/
abbrev colOf (i : (⟨2, ![1024, 16384]⟩ : Shape).Idx) : Fin 16384 := ⟨(i 1).val, (i 1).isLt⟩

/-- The Gram matrix of the rows of `A` against the rows of `B`: entry `i = (n, j)` is the inner product
    `∑ k, A[n, k] · B[j, k]` over the 4096 columns. -/
def gram (A : (⟨2, ![1024, 4096]⟩ : Shape).Idx → EReal) (B : (⟨2, ![16384, 4096]⟩ : Shape).Idx → EReal) :
    (⟨2, ![1024, 16384]⟩ : Shape).Idx → EReal :=
  fun i => ∑ k : Fin 4096, A (ix2 (rowOf i) k) * B (ix2 (colOf i) k)

/-- The specification read at an entry given by its two coordinates. -/
theorem gram_apply (A : (⟨2, ![1024, 4096]⟩ : Shape).Idx → EReal) (B : (⟨2, ![16384, 4096]⟩ : Shape).Idx → EReal)
    (i : (⟨2, ![1024, 16384]⟩ : Shape).Idx) (n : Fin 1024) (j : Fin 16384) (hn : (i 0).val = n.val) (hj : (i 1).val = j.val) :
    gram A B i = ∑ k : Fin 4096, A (ix2 n k) * B (ix2 j k) := by
  have en : rowOf i = n := Fin.ext hn
  have ej : colOf i = j := Fin.ext hj
  unfold gram
  rw [en, ej]

end Cert.Cosine

end
-- ==== Proof.RefGram.lean ====
/-
  The reference's result is the specification. The reference normalises the rows of its two arguments (each entry
  divided by its row's norm clamped from below) and contracts the two normalised arrays over their second axis. Read at
  an entry (n, j), that contraction is `∑ k, â[n, k] · b̂[j, k]` of the normalised arrays `â`, `b̂`: the Gram
  matrix of their rows. The normalisation itself is never opened here: it is the same term on both sides.
-/
import proofs.«170048_j48722109006492_1_alg».proof.Proof.Gen.ReferenceIdeal.Read
import proofs.«170048_j48722109006492_1_alg».proof.Proof.GramSpec

noncomputable section

open Idealize.ShloMosaic Idealize.ShloMosaic.ValueIdx
open scoped BigOperators

namespace Cert.ReferenceIdeal.Hand

open Cert.ReferenceIdeal Cert.ReferenceIdeal.Gen Cert.ReferenceIdeal.Read

/-- The reference's contraction of the two row-normalised arrays is the Gram matrix of their rows. -/
theorem result_eq (x0 : (⟨S1024x4096, .f32⟩ : BufTy).Contents (Elt Ideal)) (x1 : (⟨S16384x4096, .f32⟩ : BufTy).Contents (Elt Ideal)) :
    val_main_v10 (F := Ideal) x0 x1 = Cert.Cosine.gram (val_main_v7 (F := Ideal) x0) (val_main_v9 (F := Ideal) x1) := by
  funext i
  rw [val_main_v10_apply]
  unfold Cert.Cosine.gram
  refine Finset.sum_congr rfl fun k _ => ?_
  have el : lidx_main_v10 i k = ix2 (Cert.Cosine.rowOf i) k :=
    funext fun a => Fin.ext (by match a with | ⟨0, _⟩ => rfl | ⟨1, _⟩ => rfl)
  have er : ridx_main_v10 i k = ix2 (Cert.Cosine.colOf i) k :=
    funext fun a => Fin.ext (by match a with | ⟨0, _⟩ => rfl | ⟨1, _⟩ => rfl)
  rw [el, er]

end Cert.ReferenceIdeal.Hand

end
-- ==== Proof.KernelPayload.lean ====
/-
  What the kernel's body computes at one grid point, read entry by entry. The body loads a [256, 4096] block `a` and a
  [1024, 4096] block `b`, and stores their matrix product contracted over the second axis of both, accumulated into a
  zero block. On the extended reals that product, at the entry (p, q) of the [256, 1024] result, is
  `0 + ∑ k, a[p, k] · b[q, k]`, and adding the zero changes nothing: the entry is the inner product of row p of `a`
  with row q of `b`. The contraction has one axis, of extent 4096, so its index is that one coordinate `k`.
-/
import proofs.«170048_j48722109006492_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Hand

open Cert.KernelIdeal Cert.KernelIdeal.Gen

/-- The left operand's index at output entry `j` and contraction index `κ`: its row is the output's row. -/
theorem lhs_row (j : S256x1024.Idx) (κ : dot_S256x4096_S1024x4096_S256x1024_1_1_0_0_n_n.contr.Idx) :
    (dot_S256x4096_S1024x4096_S256x1024_1_1_0_0_n_n.lhsIdx j κ 0).val = (j 0).val := by
  unfold DotDims.lhsIdx
  rw [dif_neg (show ¬(0 : Fin S256x4096.rank) ∈ dot_S256x4096_S1024x4096_S256x1024_1_1_0_0_n_n.lhsBatch by decide),
    dif_pos (show (0 : Fin S256x4096.rank) ∈ dot_S256x4096_S1024x4096_S256x1024_1_1_0_0_n_n.lhsNonContracting by decide)]
  rfl

/-- The left operand's column is the contraction coordinate. -/
theorem lhs_col (j : S256x1024.Idx) (κ : dot_S256x4096_S1024x4096_S256x1024_1_1_0_0_n_n.contr.Idx) :
    (dot_S256x4096_S1024x4096_S256x1024_1_1_0_0_n_n.lhsIdx j κ 1).val = (κ ⟨0, by decide⟩).val :=
  dot_S256x4096_S1024x4096_S256x1024_1_1_0_0_n_n.lhsIdx_val_of_single rfl j κ

/-- The right operand's row is the output's column. -/
theorem rhs_row (j : S256x1024.Idx) (κ : dot_S256x4096_S1024x4096_S256x1024_1_1_0_0_n_n.contr.Idx) :
    (dot_S256x4096_S1024x4096_S256x1024_1_1_0_0_n_n.rhsIdx j κ 0).val = (j 1).val := by
  unfold DotDims.rhsIdx
  rw [dif_neg (show ¬(0 : Fin S1024x4096.rank) ∈ dot_S256x4096_S1024x4096_S256x1024_1_1_0_0_n_n.rhsBatch by decide),
    dif_pos (show (0 : Fin S1024x4096.rank) ∈ dot_S256x4096_S1024x4096_S256x1024_1_1_0_0_n_n.rhsNonContracting by decide)]
  rfl

/-- The right operand's column is the contraction coordinate. -/
theorem rhs_col (j : S256x1024.Idx) (κ : dot_S256x4096_S1024x4096_S256x1024_1_1_0_0_n_n.contr.Idx) :
    (dot_S256x4096_S1024x4096_S256x1024_1_1_0_0_n_n.rhsIdx j κ 1).val = (κ ⟨0, by decide⟩).val :=
  dot_S256x4096_S1024x4096_S256x1024_1_1_0_0_n_n.rhsIdx_val_of_single rfl j κ

/-- THE BODY'S STORED VALUE AT AN ENTRY: the inner product of row `p` of the first block with row `q` of the second. -/
theorem pay_apply (a : Vec Ideal S256x4096 .bf16) (b : Vec Ideal S1024x4096 .bf16) (p : Fin 256) (q : Fin 1024) :
    k0_pay1 (F := Ideal) a b (ix2 p q) = ∑ k : Fin 4096, a (ix2 p k) * b (ix2 q k) := by
  unfold k0_pay1
  simp only [shapeCast_self, matmul]
  rw [Ideal.matmul_constant_zero_apply,
    ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k :=
    funext fun d => Fin.ext (by
      match d with
      | ⟨0, _⟩ => exact lhs_row _ _
      | ⟨1, _⟩ => exact (lhs_col _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k :=
    funext fun d => Fin.ext (by
      match d with
      | ⟨0, _⟩ => exact rhs_row _ _
      | ⟨1, _⟩ => exact (rhs_col _ _).trans hk)
  rw [el, er]

end Cert.KernelIdeal.Hand

end
-- ==== Proof.RegionEntry.lean ====
/-
  What the kernel's two input arrays hold when the tiled product starts. Before the product the kernel's program
  normalises the rows of each argument exactly as the reference does — the squares summed along each row from zero, the
  square root, the maximum with the same small constant, the entry divided by that — and then narrows the float format,
  which on the extended reals is the identity. So the array the first window reads is the reference's row-normalised
  first argument, and the array the second window reads is the reference's row-normalised second argument: the same
  operations applied to the same argument, one after the other.
-/
import proofs.«170048_j48722109006492_1_alg».proof.Proof.Gen.KernelIdeal.Frame
import proofs.«170048_j48722109006492_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ)

/-- The first window's array at region entry is the first argument with its rows normalised. -/
theorem entry_pred (c : Dev nD) :
    (V m c main_v8 : S1024x4096.Idx → EReal)
      = Cert.ReferenceIdeal.Read.val_main_v7 (F := Ideal) (m ((c : Thread nD τ).loc main_arg0)) := by
  dsimp only [V]
  simp only [hostOps0, hostOps0_1, hostOps0_2, hostOps0_3, List.flatten_cons, List.flatten_nil, List.append_nil,
    List.cons_append, List.nil_append]
  after_results
  rfl

/-- The second window's array at region entry is the second argument with its rows normalised. -/
theorem entry_cand (c : Dev nD) :
    (V m c main_v11 : S16384x4096.Idx → EReal)
      = Cert.ReferenceIdeal.Read.val_main_v9 (F := Ideal) (m ((c : Thread nD τ).loc main_arg1)) := by
  dsimp only [V]
  simp only [hostOps0, hostOps0_1, hostOps0_2, hostOps0_3, List.flatten_cons, List.flatten_nil, List.append_nil,
    List.cons_append, List.nil_append]
  after_results
  rfl

end Cert.KernelIdeal.Hand

end
-- ==== Proof.KernelValue.lean ====
/-
  The kernel's result array is the specification. The grid has 4 × 16 points; point (a, b) reads rows
  256a … 256a + 255 of the first array (all 4096 columns), rows 1024b … 1024b + 1023 of the second (all 4096 columns),
  and writes the [256, 1024] block of the result whose top-left entry is (256a, 1024b). The body's entry (p, q) is
  the inner product of row p of the first block with row q of the second, that is of row 256a + p of the first array
  with row 1024b + q of the second: the Gram matrix's entry at (256a + p, 1024b + q), which is where the block's
  entry (p, q) lands. So every point writes its block of the Gram matrix, and the 64 blocks tile the [1024, 16384]
  array: the entry (n, j) lies in the block of point (n / 256, j / 1024). Hence the whole array ends as the Gram matrix
  of the two arrays the windows read, and those are the row-normalised arguments.
-/
import proofs.«170048_j48722109006492_1_alg».proof.Proof.Gen.KernelIdeal.Value
import proofs.«170048_j48722109006492_1_alg».proof.Proof.GramSpec
import proofs.«170048_j48722109006492_1_alg».proof.Proof.KernelPayload
import proofs.«170048_j48722109006492_1_alg».proof.Proof.RegionEntry
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen Cert.KernelIdeal.Value

variable (m : (ℓ : Loc nD τ sig) → Buf (Elt Ideal) ℓ) (ρ : Dev nD → PrngReg)

/-- The body's loads and its store start at the origin of their buffers. -/
theorem origin_zero : (![0, 0] : Fin 2 → Nat) = fun _ => 0 := funext fun a => by fin_cases a <;> rfl

/-- How the three windows' block indices are related at every grid point: the first input's row block is the output's
    row block, the second input's row block is the output's column block, neither input moves along its columns,
    and the output's block indices stay below 4 and 16. -/
theorem block_indices : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 15 :=
  (by decide +kernel : ∀ t : Fin grid0.N, _)

/-- Every block of the 4 × 16 tiling of the result is some grid point's. -/
theorem block_onto : ∀ (q0 : Fin 4) (q1 : Fin 16), ∃ t : Fin cfg0.N, win0_2.index t = ![q0.val, q1.val] :=
  (by decide +kernel : ∀ (q0 : Fin 4) (q1 : Fin 16), ∃ t : Fin grid0.N, win0_2.index t = ![q0.val, q1.val])

/-- Row `p` of the first window's block at point `t` is row `256 · (the output's row block) + p` of its array. -/
theorem pred_block (c : Dev nD) (t : Fin cfg0.N) (p : Fin 256) (k : Fin 4096) (n : Fin 1024)
    (hn : n.val = win0_2.index t (0 : Fin 2) * 256 + p.val) :
    (iblk m c 0 t : Vec Ideal S256x4096 .bf16) (ix2 p k) = (V m c main_v8 : S1024x4096.Idx → EReal) (ix2 n k) := by
  obtain ⟨e0, e1, -, -, -, -⟩ := block_indices t
  unfold iblk
  rw [View.read_apply]
  show V m c main_v8 (((cfg0.win 0).blk t).view.emb (ix2 p k)) = V m c main_v8 (ix2 n k)
  refine congrArg _ (funext fun a => Fin.ext ?_)
  match a with
  | ⟨0, _⟩ => show win0_0.index t (0 : Fin 2) * 256 + 1 * p.val = n.val; omega
  | ⟨1, _⟩ => show win0_0.index t (1 : Fin 2) * 4096 + 1 * k.val = k.val; omega

/-- Row `q` of the second window's block at point `t` is row `1024 · (the output's column block) + q` of its array. -/
theorem cand_block (c : Dev nD) (t : Fin cfg0.N) (q : Fin 1024) (k : Fin 4096) (j : Fin 16384)
    (hj : j.val = win0_2.index t (1 : Fin 2) * 1024 + q.val) :
    (iblk m c 1 t : Vec Ideal S1024x4096 .bf16) (ix2 q k) = (V m c main_v11 : S16384x4096.Idx → EReal) (ix2 j k) := by
  obtain ⟨-, -, e2, e3, -, -⟩ := block_indices t
  unfold iblk
  rw [View.read_apply]
  show V m c main_v11 (((cfg0.win 1).blk t).view.emb (ix2 q k)) = V m c main_v11 (ix2 j k)
  refine congrArg _ (funext fun a => Fin.ext ?_)
  match a with
  | ⟨0, _⟩ => show win0_1.index t (0 : Fin 2) * 1024 + 1 * q.val = j.val; omega
  | ⟨1, _⟩ => show win0_1.index t (1 : Fin 2) * 4096 + 1 * k.val = k.val; omega

/-- WHAT POINT `t` WRITES BACK is block `t` of the Gram matrix of the two arrays the input windows read. -/
theorem flushed_eq (c : Dev nD) (t : Fin cfg0.N) :
    (dats m 0 c).flushed 2 t
      = ((cfg0.win 2).blk t).view.read (Elt Ideal) (Cert.Cosine.gram (V m c main_v8) (V m c main_v11)) := by
  rw [flushed2]
  unfold out0_2
  rw [View.canon_unit_zero origin_zero]
  simp only [View.ld_unit_zero (S := S256x4096) origin_zero, View.ld_unit_zero (S := S1024x4096) origin_zero]
  funext y
  obtain ⟨p, q, rfl⟩ : ∃ (p : Fin 256) (q : Fin 1024), y = ix2 p q := ⟨y 0, y 1, eq_ix2 y⟩
  show k0_pay1 (iblk m c 0 t) (iblk m c 1 t) (ix2 p q)
    = Cert.Cosine.gram (V m c main_v8) (V m c main_v11) (((cfg0.win 2).blk t).view.emb (ix2 p q))
  refine (pay_apply (iblk m c 0 t) (iblk m c 1 t) p q).trans ?_
  obtain ⟨-, -, -, -, b0, b1⟩ := block_indices t
  have hn : win0_2.index t (0 : Fin 2) * 256 + p.val < 1024 := by have := p.isLt; omega
  have hj : win0_2.index t (1 : Fin 2) * 1024 + q.val < 16384 := by have := q.isLt; omega
  rw [Cert.Cosine.gram_apply _ _ _ ⟨_, hn⟩ ⟨_, hj⟩
    (by show win0_2.index t (0 : Fin 2) * 256 + 1 * p.val = win0_2.index t (0 : Fin 2) * 256 + p.val; omega)
    (by show win0_2.index t (1 : Fin 2) * 1024 + 1 * q.val = win0_2.index t (1 : Fin 2) * 1024 + q.val; omega)]
  refine Finset.sum_congr rfl fun k _ => ?_
  rw [pred_block m c t p k ⟨_, hn⟩ rfl, cand_block m c t q k ⟨_, hj⟩ rfl]

/-- An entry of the result lies in point `t`'s block iff each coordinate is in the block's range on its axis. -/
theorem mem_block (t : Fin cfg0.N) (i : S1024x16384.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v12).slice (win0_2.rect t)).set ↔ _
  rw [View.set_slice_whole, Rect.mem_set_unit]
  exact Iff.rfl

/-- THE BLOCKS TILE THE RESULT: the entry (n, j) lies in the block of the point whose block indices are
    (n / 256, j / 1024), and every point writes its block back. -/
theorem covered (i : S1024x16384.Idx) :
    ∃ t : Fin cfg0.N, (cfg0.win 2).flush t = true ∧ i ∈ ((cfg0.win 2).blk t).view.set := by
  have hi0 : (i 0).val < 1024 := (i 0).isLt
  have hi1 : (i 1).val < 16384 := (i 1).isLt
  obtain ⟨t, ht⟩ := block_onto ⟨(i 0).val / 256, by omega⟩ ⟨(i 1).val / 1024, by omega⟩
  have q0 : win0_2.index t (0 : Fin 2) = (i 0).val / 256 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1024 ≤ (i 1).val ∧ (i 1).val < win0_2.index t (1 : Fin 2) * 1024 + 1024
    omega

/-- THE RESULT ARRAY after the run is the Gram matrix of the two arrays the input windows read. -/
theorem final (c : Dev nD) :
    (dats m 0 c).arrAt 2 cfg0.N = Cert.Cosine.gram (V m c main_v8) (V m c main_v11) :=
  (dats m 0 c).arrAt_eq_of_cover 2 (Cert.Cosine.gram (V m c main_v8) (V m c main_v11))
    (fun t _ => flushed_eq m c t) covered

/-- THE KERNEL'S RUN, READ: every execution ends with the result array at the Gram matrix of the row-normalised
    arguments, and the arguments unchanged. -/
theorem run : θ_run defs (onTc (τ := τ) (main (F := Ideal))) ⟨m, fun _ => 0, ρ⟩ fun r => ∀ c : Dev nD,
      r.2.mem ((c : Thread nD τ).loc main_v12)
        = Cert.Cosine.gram (Cert.ReferenceIdeal.Read.val_main_v7 (F := Ideal) (m ((c : Thread nD τ).loc main_arg0)))
            (Cert.ReferenceIdeal.Read.val_main_v9 (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [entry_pred m c, entry_cand m c])), (h c).2⟩)
    (run_blocks m ρ)

end Cert.KernelIdeal.Hand

end
-- ==== Proof.lean ====
/-
  The certificate's claims, assembled.

  Both programs compute the cosine similarity of every row of a [1024, 4096] array against every row of a
  [16384, 4096] array. Each first divides every entry by its row's Euclidean norm, the norm clamped from below by the
  same small constant; the kernel then narrows the float format, which on the extended reals changes nothing. The
  reference contracts the two normalised arrays over their columns in one product; the kernel tiles the result into
  4 × 16 blocks of [256, 1024] and forms each block as the product of a [256, 4096] block of rows with a [1024, 4096]
  block of rows, accumulated into zero. Entry (n, j) is on both sides `∑ k, â[n, k] · b̂[j, k]`, the Gram matrix of the
  normalised rows (Proof/GramSpec.lean): the reference's by reading its contraction at an entry (Proof/RefGram.lean), the
  kernel's because each grid point writes its block of that matrix and the blocks tile it (Proof/KernelPayload.lean,
  Proof/KernelValue.lean), the arrays the kernel's windows read being the reference's normalised arrays
  (Proof/RegionEntry.lean). Only the order and the tiling of a finite sum differ, so no finiteness of the inputs is used.

  The idealized kernel is the kernel's own text read on the extended reals (no operation was rewritten), so there is
  nothing to show for the idealization itself. The three programs run to the end without fault and leave their
  arguments as they were: the two kernels by their frame runs, the reference by its run with the result dropped.
-/
import proofs.«170048_j48722109006492_1_alg».proof.Defs
import proofs.«170048_j48722109006492_1_alg».proof.Proof.Gen.Kernel
import proofs.«170048_j48722109006492_1_alg».proof.Proof.Gen.Kernel.Frame
import proofs.«170048_j48722109006492_1_alg».proof.Proof.Gen.KernelIdeal
import proofs.«170048_j48722109006492_1_alg».proof.Proof.Gen.KernelIdeal.Frame
import proofs.«170048_j48722109006492_1_alg».proof.Proof.Gen.KernelIdeal.Value
import proofs.«170048_j48722109006492_1_alg».proof.Proof.Gen.ReferenceIdeal
import proofs.«170048_j48722109006492_1_alg».proof.Proof.Gen.ReferenceIdeal.Run
import proofs.«170048_j48722109006492_1_alg».proof.Proof.Gen.ReferenceIdeal.Read
import proofs.«170048_j48722109006492_1_alg».proof.Proof.Gen.Pre_finite_inputs
import proofs.«170048_j48722109006492_1_alg».proof.Proof.GramSpec
import proofs.«170048_j48722109006492_1_alg».proof.Proof.RefGram
import proofs.«170048_j48722109006492_1_alg».proof.Proof.KernelValue
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at the Gram
    matrix of the row-normalised arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Hand.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
